-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S2x320000 : Shape := ⟨2, ![2, 320000]⟩
abbrev S512x128 : Shape := ⟨2, ![512, 128]⟩
abbrev S128 : Shape := ⟨1, ![128]⟩
abbrev S128x10000 : Shape := ⟨2, ![128, 10000]⟩
abbrev S10000 : Shape := ⟨1, ![10000]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x10000 : S_.BroadcastsInDim S128x10000 (![] : Fin 0 → Fin S128x10000.rank)
  reducesTo_S128x10000_S_d0_1 : S128x10000.ReducesTo [0, 1] S_
  bcast_S_S10000 : S_.BroadcastsInDim S10000 (![] : Fin 0 → Fin S10000.rank)
  reducesTo_S10000_S_d0 : S10000.ReducesTo [0] S_

variable [Facts]

def fn_part1 {F : FTy → Type} [FloatOps F] (main_arg5 : FVec F S10000 .f32) (main_v13 : IVec S_ 1) (main_v16 : IVec S128x10000 1) : IVec S_ 1 :=
  let main_c_5 : IVec S_ 1 := constantI S_ 1 1#1
  let main_v17 : IVec S_ 1 := (fun x v => Host.reduce IntOp.andi x v reducesTo_S128x10000_S_d0_1 h_S_) main_v16 main_c_5
  let main_v18 : IVec S_ 1 := andi main_v13 main_v17
  let main_v19 : FVec F S10000 .f32 := Host.absf main_arg5
  let main_cst_6 : FVec F S_ .f32 := constant S_ .f32 0x7F800000#32
  let main_v20 : FVec F S10000 .f32 := broadcastInDim S10000 ![] bcast_S_S10000 main_cst_6
  let main_v21 : IVec S10000 1 := cmpf .olt main_v19 main_v20
  let main_c_7 : IVec S_ 1 := constantI S_ 1 1#1
  let main_v22 : IVec S_ 1 := (fun x v => Host.reduce IntOp.andi x v reducesTo_S10000_S_d0 h_S_) main_v21 main_c_7
  let main_v23 : IVec S_ 1 := andi main_v18 main_v22
  main_v23

def fn {F : FTy → Type} [FloatOps F] (main_arg0 : FVec F S10000x512 .f32) (main_arg1 : IVec S2x320000 32) (main_arg2 : FVec F S512x128 .f32) (main_arg3 : FVec F S128 .f32) (main_arg4 : FVec F S128x10000 .f32) (main_arg5 : FVec F S10000 .f32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S512x128 .f32 := Host.absf main_arg2
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x10000 .f32 := Host.absf main_arg4
  let main_cst_4 : FVec F S_ .f32 := constant S_ .f32 0x7F800000#32
  let main_v15 : FVec F S128x10000 .f32 := broadcastInDim S128x10000 ![] bcast_S_S128x10000 main_cst_4
  let main_v16 : IVec S128x10000 1 := cmpf .olt main_v14 main_v15
  fn_part1 (F := F) main_arg5 main_v13 main_v16
-- ==== Kernel.lean ====
abbrev S10000x512 : Shape := ⟨2, ![10000, 512]⟩
abbrev S2x320000 : Shape := ⟨2, ![2, 320000]⟩
abbrev S512x128 : Shape := ⟨2, ![512, 128]⟩
abbrev S128 : Shape := ⟨1, ![128]⟩
abbrev S128x10000 : Shape := ⟨2, ![128, 10000]⟩
abbrev S10000 : Shape := ⟨1, ![10000]⟩
abbrev S10000x128 : Shape := ⟨2, ![10000, 128]⟩
abbrev S1000x512 : Shape := ⟨2, ![1000, 512]⟩
abbrev S1000x128 : Shape := ⟨2, ![1000, 128]⟩
abbrev S1x320000 : Shape := ⟨2, ![1, 320000]⟩
abbrev S320000 : Shape := ⟨1, ![320000]⟩
abbrev S330000 : Shape := ⟨1, ![330000]⟩
abbrev S_ : Shape := ⟨0, ![]⟩
abbrev S330000x1 : Shape := ⟨2, ![330000, 1]⟩
abbrev S330000x128 : Shape := ⟨2, ![330000, 128]⟩
abbrev S1x128 : Shape := ⟨2, ![1, 128]⟩
abbrev S1x10000 : Shape := ⟨2, ![1, 10000]⟩
abbrev S10000x10000 : Shape := ⟨2, ![10000, 10000]⟩
abbrev S200x128 : Shape := ⟨2, ![200, 128]⟩
abbrev S200x10000 : Shape := ⟨2, ![200, 10000]⟩

abbrev nBuf : Space → Nat
  | .hbm => 69
  | .vmem => 11
  | .smem => 0
  | _ => 0

abbrev bufTy : (tb : Table) → Fin (tcTables nBuf tb) → BufTy
  | .hbm, ⟨0, _⟩ => ⟨S10000x512, .f32⟩
  | .hbm, ⟨1, _⟩ => ⟨S2x320000, .i32⟩
  | .hbm, ⟨2, _⟩ => ⟨S512x128, .f32⟩
  | .hbm, ⟨3, _⟩ => ⟨S128, .f32⟩
  | .hbm, ⟨4, _⟩ => ⟨S128x10000, .f32⟩
  | .hbm, ⟨5, _⟩ => ⟨S10000, .f32⟩
  | .hbm, ⟨6, _⟩ => ⟨S10000x128, .f32⟩
  | .hbm, ⟨7, _⟩ => ⟨S10000, .i32⟩
  | .hbm, ⟨8, _⟩ => ⟨S1x320000, .i32⟩
  | .hbm, ⟨9, _⟩ => ⟨S320000, .i32⟩
  | .hbm, ⟨10, _⟩ => ⟨S330000, .i32⟩
  | .hbm, ⟨11, _⟩ => ⟨S1x320000, .i32⟩
  | .hbm, ⟨12, _⟩ => ⟨S320000, .i32⟩
  | .hbm, ⟨13, _⟩ => ⟨S330000, .i32⟩
  | .hbm, ⟨14, _⟩ => ⟨S_, .f32⟩
  | .hbm, ⟨15, _⟩ => ⟨S330000, .f32⟩
  | .hbm, ⟨16, _⟩ => ⟨S_, .f32⟩
  | .hbm, ⟨17, _⟩ => ⟨S10000, .f32⟩
  | .hbm, ⟨18, _⟩ => ⟨S330000x1, .i32⟩
  | .hbm, ⟨19, _⟩ => ⟨S10000, .f32⟩
  | .hbm, ⟨20, _⟩ => ⟨S_, .f32⟩
  | .hbm, ⟨21, _⟩ => ⟨S10000, .f32⟩
  | .hbm, ⟨22, _⟩ => ⟨S10000, .i1⟩
  | .hbm, ⟨23, _⟩ => ⟨S10000, .f32⟩
  | .hbm, ⟨24, _⟩ => ⟨S_, .f32⟩
  | .hbm, ⟨25, _⟩ => ⟨S_, .f32⟩
  | .hbm, ⟨26, _⟩ => ⟨S10000, .f32⟩
  | .hbm, ⟨27, _⟩ => ⟨S10000, .f32⟩
  | .hbm, ⟨28, _⟩ => ⟨S_, .i32⟩
  | .hbm, ⟨29, _⟩ => ⟨S330000, .i32⟩
  | .hbm, ⟨30, _⟩ => ⟨S330000, .i1⟩
  | .hbm, ⟨31, _⟩ => ⟨S_, .i32⟩
  | .hbm, ⟨32, _⟩ => ⟨S330000, .i32⟩
  | .hbm, ⟨33, _⟩ => ⟨S330000, .i32⟩
  | .hbm, ⟨34, _⟩ => ⟨S330000, .i32⟩
  | .hbm, ⟨35, _⟩ => ⟨S330000x1, .i32⟩
  | .hbm, ⟨36, _⟩ => ⟨S330000, .f32⟩
  | .hbm, ⟨37, _⟩ => ⟨S_, .i32⟩
  | .hbm, ⟨38, _⟩ => ⟨S330000, .i32⟩
  | .hbm, ⟨39, _⟩ => ⟨S330000, .i1⟩
  | .hbm, ⟨40, _⟩ => ⟨S_, .i32⟩
  | .hbm, ⟨41, _⟩ => ⟨S330000, .i32⟩
  | .hbm, ⟨42, _⟩ => ⟨S330000, .i32⟩
  | .hbm, ⟨43, _⟩ => ⟨S330000, .i32⟩
  | .hbm, ⟨44, _⟩ => ⟨S330000x1, .i32⟩
  | .hbm, ⟨45, _⟩ => ⟨S330000, .f32⟩
  | .hbm, ⟨46, _⟩ => ⟨S330000, .f32⟩
  | .hbm, ⟨47, _⟩ => ⟨S_, .i32⟩
  | .hbm, ⟨48, _⟩ => ⟨S330000, .i32⟩
  | .hbm, ⟨49, _⟩ => ⟨S330000, .i1⟩
  | .hbm, ⟨50, _⟩ => ⟨S_, .i32⟩
  | .hbm, ⟨51, _⟩ => ⟨S330000, .i32⟩
  | .hbm, ⟨52, _⟩ => ⟨S330000, .i32⟩
  | .hbm, ⟨53, _⟩ => ⟨S330000, .i32⟩
  | .hbm, ⟨54, _⟩ => ⟨S330000x1, .i32⟩
  | .hbm, ⟨55, _⟩ => ⟨S330000x128, .f32⟩
  | .hbm, ⟨56, _⟩ => ⟨S330000x1, .f32⟩
  | .hbm, ⟨57, _⟩ => ⟨S330000x128, .f32⟩
  | .hbm, ⟨58, _⟩ => ⟨S330000x128, .f32⟩
  | .hbm, ⟨59, _⟩ => ⟨S_, .f32⟩
  | .hbm, ⟨60, _⟩ => ⟨S10000x128, .f32⟩
  | .hbm, ⟨61, _⟩ => ⟨S330000x1, .i32⟩
  | .hbm, ⟨62, _⟩ => ⟨S10000x128, .f32⟩
  | .hbm, ⟨63, _⟩ => ⟨S1x128, .f32⟩
  | .hbm, ⟨64, _⟩ => ⟨S10000x128, .f32⟩
  | .hbm, ⟨65, _⟩ => ⟨S10000x128, .f32⟩
  | .hbm, ⟨66, _⟩ => ⟨S128x10000, .bf16⟩
  | .hbm, ⟨67, _⟩ => ⟨S1x10000, .f32⟩
  | .hbm, ⟨68, _⟩ => ⟨S10000x10000, .f32⟩
  | .local _ .vmem, ⟨0, _⟩ => ⟨S1000x512, .f32⟩
  | .local _ .vmem, ⟨1, _⟩ => ⟨S1000x512, .f32⟩
  | .local _ .vmem, ⟨2, _⟩ => ⟨S512x128, .f32⟩
  | .local _ .vmem, ⟨3, _⟩ => ⟨S1000x128, .f32⟩
  | .local _ .vmem, ⟨4, _⟩ => ⟨S1000x128, .f32⟩
  | .local _ .vmem, ⟨5, _⟩ => ⟨S200x128, .f32⟩
  | .local _ .vmem, ⟨6, _⟩ => ⟨S200x128, .f32⟩
  | .local _ .vmem, ⟨7, _⟩ => ⟨S128x10000, .bf16⟩
  | .local _ .vmem, ⟨8, _⟩ => ⟨S1x10000, .f32⟩
  | .local _ .vmem, ⟨9, _⟩ => ⟨S200x10000, .f32⟩
  | .local _ .vmem, ⟨10, _⟩ => ⟨S200x10000, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x10000 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x10000 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S200x10000 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S1000x512_S1000x512_0_0 : ∀ a, (![0, 0] : Fin 2 → Nat) a + S1000x512.size a ≤ S1000x512.size a
  h_S1000x512 : 0 < S1000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S1000x128_S1000x128_0_0 : ∀ a, (![0, 0] : Fin 2 → Nat) a + S1000x128.size a ≤ S1000x128.size a
  h_S1000x128 : 0 < S1000x128.numel
  slices_S2x320000_S1x320000_0_0 : S2x320000.Slices ![0, 0] S1x320000
  shapeCasts_S1x320000_S320000 : S1x320000.ShapeCasts S320000
  concatenates_S320000_S10000_S330000_d0 : Shape.Concatenates [S320000, S10000] S330000 0
  slices_S2x320000_S1x320000_1_0 : S2x320000.Slices ![1, 0] S1x320000
  bcast_S_S330000 : S_.BroadcastsInDim S330000 (![] : Fin 0 → Fin S330000.rank)
  bcast_S_S10000 : S_.BroadcastsInDim S10000 (![] : Fin 0 → Fin S10000.rank)
  bcast_S330000_S330000x1_0 : S330000.BroadcastsInDim S330000x1 (![0] : Fin 1 → Fin S330000x1.rank)
  bcast_S330000x1_S330000x128_0_1 : S330000x1.BroadcastsInDim S330000x128 (![0, 1] : Fin 2 → Fin S330000x128.rank)
  bcast_S_S10000x128 : S_.BroadcastsInDim S10000x128 (![] : Fin 0 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  shapeCasts_S10000_S1x10000 : S10000.ShapeCasts S1x10000
  inb_S200x128_S200x128_0_0 : ∀ a, (![0, 0] : Fin 2 → Nat) a + S200x128.size a ≤ S200x128.size a
  h_S200x128 : 0 < S200x128.numel
  shapeCasts_S200x128_S200x128 : S200x128.ShapeCasts S200x128
  inb_S128x10000_S128x10000_0_0 : ∀ a, (![0, 0] : Fin 2 → Nat) a + S128x10000.size a ≤ S128x10000.size a
  h_S128x10000 : 0 < S128x10000.numel
  shapeCasts_S128x10000_S128x10000 : S128x10000.ShapeCasts S128x10000
  inb_S1x10000_S1x10000_0_0 : ∀ a, (![0, 0] : Fin 2 → Nat) a + S1x10000.size a ≤ S1x10000.size a
  h_S1x10000 : 0 < S1x10000.numel
  shapeCasts_S1x10000_S1x10000 : S1x10000.ShapeCasts S1x10000
  broadcasts_S1x10000_S200x10000 : S1x10000.Broadcasts S200x10000
  inb_S200x10000_S200x10000_0_0 : ∀ a, (![0, 0] : Fin 2 → Nat) a + S200x10000.size a ≤ S200x10000.size a
  h_S200x10000 : 0 < S200x10000.numel
  dot_S1000x512_S512x128_S1000x128_1_0_0_1_n_n_wf : DotDims.WF S1000x512 S512x128 S1000x128 [1] [0] [0] [1] [] []
  scatter_S10000_S330000x1_S330000_n_0_0_1_wf : ScatterDims.WF S10000 S330000x1 S330000 [] [0] [0] 1
  gather_S10000_S330000x1_S330000_n_0_n_n_0_1_1_wf : GatherDims.WF S10000 S330000x1 S330000 [] [0] [] [0] [] 1 ![1]
  gather_S10000x128_S330000x1_S330000x128_1_0_n_n_0_1_1128_wf : GatherDims.WF S10000x128 S330000x1 S330000x128 [1] [0] [] [0] [] 1 ![1, 128]
  scatter_S10000x128_S330000x1_S330000x128_1_0_0_1_wf : ScatterDims.WF S10000x128 S330000x1 S330000x128 [1] [0] [0] 1
  dot_S200x128_S128x10000_S200x10000_1_0_0_1_n_n_wf : DotDims.WF S200x128 S128x10000 S200x10000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S10000x512.size a
  hwx0_0 : ∀ i : grid0.Coords, EltTy.bits .f32 = 32 ∨ (Rect.block (s := S10000x512) S1000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x128.size a ≤ S10000x128.size a
  hwx0_2 : ∀ i : grid0.Coords, EltTy.bits .f32 = 32 ∨ (Rect.block (s := S10000x128) S1000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x128.size a ≤ S10000x128.size a
  hwx1_0 : ∀ i : grid1.Coords, EltTy.bits .f32 = 32 ∨ (Rect.block (s := S10000x128) S200x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x10000.size a ≤ S128x10000.size a
  hwx1_1 : ∀ i : grid1.Coords, EltTy.bits .bf16 = 32 ∨ (Rect.block (s := S128x10000) S128x10000.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x10000.size a ≤ S1x10000.size a
  hwx1_2 : ∀ i : grid1.Coords, EltTy.bits .f32 = 32 ∨ (Rect.block (s := S1x10000) S1x10000.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S200x10000.size a ≤ S10000x10000.size a
  hwx1_3 : ∀ i : grid1.Coords, EltTy.bits .f32 = 32 ∨ (Rect.block (s := S10000x10000) S200x10000.size (cc1_transform_3 i) (hinb1_3 i)).WholeWords (EltTy.packing .f32)

variable [Facts₀]

def dot_S1000x512_S512x128_S1000x128_1_0_0_1_n_n : DotDims S1000x512 S512x128 S1000x128 where
  lhsContracting := [1]
  rhsContracting := [0]
  lhsNonContracting := [0]
  rhsNonContracting := [1]
  lhsBatch := []
  rhsBatch := []
  wf := dot_S1000x512_S512x128_S1000x128_1_0_0_1_n_n_wf
def scatter_S10000_S330000x1_S330000_n_0_0_1 : ScatterDims S10000 S330000x1 S330000 where
  updateWindowDims := []
  insertedWindowDims := [0]
  scatterDimsToOperandDims := [0]
  indexVectorDim := 1
  wf := scatter_S10000_S330000x1_S330000_n_0_0_1_wf
def gather_S10000_S330000x1_S330000_n_0_n_n_0_1_1 : GatherDims S10000 S330000x1 S330000 where
  offsetDims := []
  collapsedSliceDims := [0]
  operandBatchingDims := []
  startIndicesBatchingDims := []
  startIndexMap := [0]
  indexVectorDim := 1
  sliceSizes := ![1]
  wf := gather_S10000_S330000x1_S330000_n_0_n_n_0_1_1_wf
def gather_S10000x128_S330000x1_S330000x128_1_0_n_n_0_1_1128 : GatherDims S10000x128 S330000x1 S330000x128 where
  offsetDims := [1]
  collapsedSliceDims := [0]
  operandBatchingDims := []
  startIndicesBatchingDims := []
  startIndexMap := [0]
  indexVectorDim := 1
  sliceSizes := ![1, 128]
  wf := gather_S10000x128_S330000x1_S330000x128_1_0_n_n_0_1_1128_wf
def scatter_S10000x128_S330000x1_S330000x128_1_0_0_1 : ScatterDims S10000x128 S330000x1 S330000x128 where
  updateWindowDims := [1]
  insertedWindowDims := [0]
  scatterDimsToOperandDims := [0]
  indexVectorDim := 1
  wf := scatter_S10000x128_S330000x1_S330000x128_1_0_0_1_wf
def dot_S200x128_S128x10000_S200x10000_1_0_0_1_n_n : DotDims S200x128 S128x10000 S200x10000 where
  lhsContracting := [1]
  rhsContracting := [0]
  lhsNonContracting := [0]
  rhsNonContracting := [1]
  lhsBatch := []
  rhsBatch := []
  wf := dot_S200x128_S128x10000_S200x10000_1_0_0_1_n_n_wf

abbrev win0_0 : Pipeline.Window sig grid0 :=
  Pipeline.Window.ofSpec (Memref.whole main_arg0) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S200x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S128x10000.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S1x10000.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v49) S200x10000.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S10000x512 : Shape := ⟨2, ![10000, 512]⟩
abbrev S2x320000 : Shape := ⟨2, ![2, 320000]⟩
abbrev S512x128 : Shape := ⟨2, ![512, 128]⟩
abbrev S128 : Shape := ⟨1, ![128]⟩
abbrev S128x10000 : Shape := ⟨2, ![128, 10000]⟩
abbrev S10000 : Shape := ⟨1, ![10000]⟩
abbrev S10000x128 : Shape := ⟨2, ![10000, 128]⟩
abbrev S1x320000 : Shape := ⟨2, ![1, 320000]⟩
abbrev S320000 : Shape := ⟨1, ![320000]⟩
abbrev S330000 : Shape := ⟨1, ![330000]⟩
abbrev S_ : Shape := ⟨0, ![]⟩
abbrev S330000x1 : Shape := ⟨2, ![330000, 1]⟩
abbrev S330000x128 : Shape := ⟨2, ![330000, 128]⟩
abbrev S1x128 : Shape := ⟨2, ![1, 128]⟩
abbrev S10000x10000 : Shape := ⟨2, ![10000, 10000]⟩
abbrev S1x10000 : Shape := ⟨2, ![1, 10000]⟩

abbrev nBuf : Space → Nat
  | .hbm => 78
  | .vmem => 0
  | .smem => 0
  | _ => 0

abbrev bufTy : (tb : Table) → Fin (tcTables nBuf tb) → BufTy
  | .hbm, ⟨0, _⟩ => ⟨S10000x512, .f32⟩
  | .hbm, ⟨1, _⟩ => ⟨S2x320000, .i32⟩
  | .hbm, ⟨2, _⟩ => ⟨S512x128, .f32⟩
  | .hbm, ⟨3, _⟩ => ⟨S128, .f32⟩
  | .hbm, ⟨4, _⟩ => ⟨S128x10000, .f32⟩
  | .hbm, ⟨5, _⟩ => ⟨S10000, .f32⟩
  | .hbm, ⟨6, _⟩ => ⟨S10000x128, .f32⟩
  | .hbm, ⟨7, _⟩ => ⟨S10000, .i32⟩
  | .hbm, ⟨8, _⟩ => ⟨S1x320000, .i32⟩
  | .hbm, ⟨9, _⟩ => ⟨S320000, .i32⟩
  | .hbm, ⟨10, _⟩ => ⟨S330000, .i32⟩
  | .hbm, ⟨11, _⟩ => ⟨S1x320000, .i32⟩
  | .hbm, ⟨12, _⟩ => ⟨S320000, .i32⟩
  | .hbm, ⟨13, _⟩ => ⟨S330000, .i32⟩
  | .hbm, ⟨14, _⟩ => ⟨S_, .f32⟩
  | .hbm, ⟨15, _⟩ => ⟨S330000, .f32⟩
  | .hbm, ⟨16, _⟩ => ⟨S_, .f32⟩
  | .hbm, ⟨17, _⟩ => ⟨S10000, .f32⟩
  | .hbm, ⟨18, _⟩ => ⟨S330000x1, .i32⟩
  | .hbm, ⟨19, _⟩ => ⟨S10000, .f32⟩
  | .hbm, ⟨20, _⟩ => ⟨S_, .f32⟩
  | .hbm, ⟨21, _⟩ => ⟨S10000, .f32⟩
  | .hbm, ⟨22, _⟩ => ⟨S10000, .i1⟩
  | .hbm, ⟨23, _⟩ => ⟨S10000, .f32⟩
  | .hbm, ⟨24, _⟩ => ⟨S_, .f32⟩
  | .hbm, ⟨25, _⟩ => ⟨S_, .f32⟩
  | .hbm, ⟨26, _⟩ => ⟨S10000, .f32⟩
  | .hbm, ⟨27, _⟩ => ⟨S10000, .f32⟩
  | .hbm, ⟨28, _⟩ => ⟨S_, .i32⟩
  | .hbm, ⟨29, _⟩ => ⟨S330000, .i32⟩
  | .hbm, ⟨30, _⟩ => ⟨S330000, .i1⟩
  | .hbm, ⟨31, _⟩ => ⟨S_, .i32⟩
  | .hbm, ⟨32, _⟩ => ⟨S330000, .i32⟩
  | .hbm, ⟨33, _⟩ => ⟨S330000, .i32⟩
  | .hbm, ⟨34, _⟩ => ⟨S330000, .i32⟩
  | .hbm, ⟨35, _⟩ => ⟨S330000x1, .i32⟩
  | .hbm, ⟨36, _⟩ => ⟨S330000, .f32⟩
  | .hbm, ⟨37, _⟩ => ⟨S_, .i32⟩
  | .hbm, ⟨38, _⟩ => ⟨S330000, .i32⟩
  | .hbm, ⟨39, _⟩ => ⟨S330000, .i1⟩
  | .hbm, ⟨40, _⟩ => ⟨S_, .i32⟩
  | .hbm, ⟨41, _⟩ => ⟨S330000, .i32⟩
  | .hbm, ⟨42, _⟩ => ⟨S330000, .i32⟩
  | .hbm, ⟨43, _⟩ => ⟨S330000, .i32⟩
  | .hbm, ⟨44, _⟩ => ⟨S330000x1, .i32⟩
  | .hbm, ⟨45, _⟩ => ⟨S330000, .f32⟩
  | .hbm, ⟨46, _⟩ => ⟨S330000, .f32⟩
  | .hbm, ⟨47, _⟩ => ⟨S_, .i32⟩
  | .hbm, ⟨48, _⟩ => ⟨S330000, .i32⟩
  | .hbm, ⟨49, _⟩ => ⟨S330000, .i1⟩
  | .hbm, ⟨50, _⟩ => ⟨S_, .i32⟩
  | .hbm, ⟨51, _⟩ => ⟨S330000, .i32⟩
  | .hbm, ⟨52, _⟩ => ⟨S330000, .i32⟩
  | .hbm, ⟨53, _⟩ => ⟨S330000, .i32⟩
  | .hbm, ⟨54, _⟩ => ⟨S330000x1, .i32⟩
  | .hbm, ⟨55, _⟩ => ⟨S330000x128, .f32⟩
  | .hbm, ⟨56, _⟩ => ⟨S330000x1, .f32⟩
  | .hbm, ⟨57, _⟩ => ⟨S330000x128, .f32⟩
  | .hbm, ⟨58, _⟩ => ⟨S330000x128, .f32⟩
  | .hbm, ⟨59, _⟩ => ⟨S_, .f32⟩
  | .hbm, ⟨60, _⟩ => ⟨S10000x128, .f32⟩
  | .hbm, ⟨61, _⟩ => ⟨S330000x1, .i32⟩
  | .hbm, ⟨62, _⟩ => ⟨S10000x128, .f32⟩
  | .hbm, ⟨63, _⟩ => ⟨S1x128, .f32⟩
  | .hbm, ⟨64, _⟩ => ⟨S10000x128, .f32⟩
  | .hbm, ⟨65, _⟩ => ⟨S10000x128, .f32⟩
  | .hbm, ⟨66, _⟩ => ⟨S10000x10000, .f32⟩
  | .hbm, ⟨67, _⟩ => ⟨S1x10000, .f32⟩
  | .hbm, ⟨68, _⟩ => ⟨S10000x10000, .f32⟩
  | .hbm, ⟨69, _⟩ => ⟨S10000x10000, .f32⟩
  | .hbm, ⟨70, _⟩ => ⟨S10000x10000, .f32⟩
  | .hbm, ⟨71, _⟩ => ⟨S10000x10000, .f32⟩
  | .hbm, ⟨72, _⟩ => ⟨S_, .f32⟩
  | .hbm, ⟨73, _⟩ => ⟨S10000x10000, .f32⟩
  | .hbm, ⟨74, _⟩ => ⟨S10000x10000, .f32⟩
  | .hbm, ⟨75, _⟩ => ⟨S_, .f32⟩
  | .hbm, ⟨76, _⟩ => ⟨S10000x10000, .f32⟩
  | .hbm, ⟨77, _⟩ => ⟨S10000x10000, .f32⟩
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_9 : Ref sig .tc := ⟨.hbm, 72, rfl⟩
abbrev main_v53 : Ref sig .tc := ⟨.hbm, 73, rfl⟩
abbrev main_v54 : Ref sig .tc := ⟨.hbm, 74, rfl⟩
abbrev main_cst_10 : Ref sig .tc := ⟨.hbm, 75, rfl⟩
abbrev main_v55 : Ref sig .tc := ⟨.hbm, 76, rfl⟩
abbrev main_v56 : Ref sig .tc := ⟨.hbm, 77, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  concatenates_S320000_S10000_S330000_d0 : Shape.Concatenates [S320000, S10000] S330000 0
  slices_S2x320000_S1x320000_1_0 : S2x320000.Slices ![1, 0] S1x320000
  bcast_S_S330000 : S_.BroadcastsInDim S330000 (![] : Fin 0 → Fin S330000.rank)
  bcast_S_S10000 : S_.BroadcastsInDim S10000 (![] : Fin 0 → Fin S10000.rank)
  bcast_S330000_S330000x1_0 : S330000.BroadcastsInDim S330000x1 (![0] : Fin 1 → Fin S330000x1.rank)
  bcast_S330000x1_S330000x128_0_1 : S330000x1.BroadcastsInDim S330000x128 (![0, 1] : Fin 2 → Fin S330000x128.rank)
  bcast_S_S10000x128 : S_.BroadcastsInDim S10000x128 (![] : Fin 0 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S10000_S1x10000_1 : S10000.BroadcastsInDim S1x10000 (![1] : Fin 1 → Fin S1x10000.rank)
  bcast_S1x10000_S10000x10000_0_1 : S1x10000.BroadcastsInDim S10000x10000 (![0, 1] : Fin 2 → Fin S10000x10000.rank)
  bcast_S_S10000x10000 : S_.BroadcastsInDim S10000x10000 (![] : Fin 0 → Fin S10000x10000.rank)
  dot_S10000x512_S512x128_S10000x128_1_0_0_1_n_n_wf : DotDims.WF S10000x512 S512x128 S10000x128 [1] [0] [0] [1] [] []
  scatter_S10000_S330000x1_S330000_n_0_0_1_wf : ScatterDims.WF S10000 S330000x1 S330000 [] [0] [0] 1
  gather_S10000_S330000x1_S330000_n_0_n_n_0_1_1_wf : GatherDims.WF S10000 S330000x1 S330000 [] [0] [] [0] [] 1 ![1]
  gather_S10000x128_S330000x1_S330000x128_1_0_n_n_0_1_1128_wf : GatherDims.WF S10000x128 S330000x1 S330000x128 [1] [0] [] [0] [] 1 ![1, 128]
  scatter_S10000x128_S330000x1_S330000x128_1_0_0_1_wf : ScatterDims.WF S10000x128 S330000x1 S330000x128 [1] [0] [0] 1
  dot_S10000x128_S128x10000_S10000x10000_1_0_0_1_n_n_wf : DotDims.WF S10000x128 S128x10000 S10000x10000 [1] [0] [0] [1] [] []

variable [Facts₀]

def dot_S10000x512_S512x128_S10000x128_1_0_0_1_n_n : DotDims S10000x512 S512x128 S10000x128 where
  lhsContracting := [1]
  rhsContracting := [0]
  lhsNonContracting := [0]
  rhsNonContracting := [1]
  lhsBatch := []
  rhsBatch := []
  wf := dot_S10000x512_S512x128_S10000x128_1_0_0_1_n_n_wf
def scatter_S10000_S330000x1_S330000_n_0_0_1 : ScatterDims S10000 S330000x1 S330000 where
  updateWindowDims := []
  insertedWindowDims := [0]
  scatterDimsToOperandDims := [0]
  indexVectorDim := 1
  wf := scatter_S10000_S330000x1_S330000_n_0_0_1_wf
def gather_S10000_S330000x1_S330000_n_0_n_n_0_1_1 : GatherDims S10000 S330000x1 S330000 where
  offsetDims := []
  collapsedSliceDims := [0]
  operandBatchingDims := []
  startIndicesBatchingDims := []
  startIndexMap := [0]
  indexVectorDim := 1
  sliceSizes := ![1]
  wf := gather_S10000_S330000x1_S330000_n_0_n_n_0_1_1_wf
def gather_S10000x128_S330000x1_S330000x128_1_0_n_n_0_1_1128 : GatherDims S10000x128 S330000x1 S330000x128 where
  offsetDims := [1]
  collapsedSliceDims := [0]
  operandBatchingDims := []
  startIndicesBatchingDims := []
  startIndexMap := [0]
  indexVectorDim := 1
  sliceSizes := ![1, 128]
  wf := gather_S10000x128_S330000x1_S330000x128_1_0_n_n_0_1_1128_wf
def scatter_S10000x128_S330000x1_S330000x128_1_0_0_1 : ScatterDims S10000x128 S330000x1 S330000x128 where
  updateWindowDims := [1]
  insertedWindowDims := [0]
  scatterDimsToOperandDims := [0]
  indexVectorDim := 1
  wf := scatter_S10000x128_S330000x1_S330000x128_1_0_0_1_wf
def dot_S10000x128_S128x10000_S10000x10000_1_0_0_1_n_n : DotDims S10000x128 S128x10000 S10000x10000 where
  lhsContracting := [1]
  rhsContracting := [0]
  lhsNonContracting := [0]
  rhsNonContracting := [1]
  lhsBatch := []
  rhsBatch := []
  wf := dot_S10000x128_S128x10000_S10000x10000_1_0_0_1_n_n_wf

class Facts : Prop extends Facts₀ where

variable [Facts]
-- ==== Proof.Spec.lean ====
/-
  The three functions the graph autoencoder is made of, as whole-array functions of the argument arrays.

  * `encode x w`: the dense product of the node features `x` [10000, 512] with the encoder weights `w` [512, 128];
    entry (r, c) is the sum over k of x(r, k) · w(k, c) on the extended reals.
  * `aggregate h e b`: the GCN layer between the two products. From the edge list `e` [2, 320000] it forms the source
    and target lists with one self loop per node appended (330000 entries each), counts each node's in-degree by a
    scatter-add of ones, takes d = deg^(-1/2) where the degree is positive and 0 elsewhere, scales the gathered rows
    h[src] by d[src] · d[dst], scatter-adds them at the targets, and adds the bias row `b`. An index list is used with
    jnp's wrap-around of negative entries (i < 0 reads i + 10000). It is one composition of host operations, the same in
    the kernel's program and in the reference's.
  * `decode z w b`: the logistic function of the dense product of `z` [10000, 128] with the decoder weights `w`
    [128, 10000] plus the bias `b` (a [1, 10000] row): entry (r, c) is σ(∑ k, z(r, k) · w(k, c) + b(0, c)),
    σ(t) = 1 / (1 + e^(-t)) with its limits 0 and 1 at the infinities.

  The autoencoder's output is `decode (aggregate (encode x W_enc) edges b_enc) W_dec b_dec`.
-/
import proofs.«110283_j59528246722864_1_alg».proof.Proof.Gen.KernelIdeal
import Idealize.ShloMosaic.PureOps.Ideal
import Idealize.ShloMosaic.Lib.ValueIdx

noncomputable section

namespace Cert.Gcn

open Idealize.ShloMosaic Idealize.ShloMosaic.ValueIdx Cert.KernelIdeal Cert.KernelIdeal.Facts₀

/-! ## The two dense layers, at the extended reals -/

/-- The encoder's product: entry (r, c) is ∑ k, x(r, k) · w(k, c). -/
def encode (x : S10000x512.Idx → Elt Ideal .f32) (w : S512x128.Idx → Elt Ideal .f32) : S10000x128.Idx → Elt Ideal .f32 :=
  fun i => ∑ k : Fin 512, x (ix2 (i 0) k) * w (ix2 k (i 1))

/-- The decoder: entry (r, c) is σ(∑ k, z(r, k) · w(k, c) + b(0, c)). The weights arrive in the 16-bit format (on the
    extended reals a change of format is the identity), the bias as a one-row matrix. -/
def decode (z : S10000x128.Idx → Elt Ideal .f32) (w : S128x10000.Idx → Elt Ideal .bf16) (b : S1x10000.Idx → Elt Ideal .f32) :
    S10000x10000.Idx → Elt Ideal .f32 :=
  fun i => Ideal.logistic ((∑ k : Fin 128, z (ix2 (i 0) k) * w (ix2 k (i 1))) + b (ix2 0 (i 1)))

/-! ## The graph layer between them, at any float instance -/

variable {F : FTy → Type} [FloatOps F]

/-- jnp's reading of an index list: a negative entry `i` stands for `i + 10000`; as the [330000, 1] index operand of a
    gather. -/
def wrapped (idx : IVec S330000 32) : IVec S330000x1 32 :=
  broadcastInDim S330000x1 ![0] bcast_S330000_S330000x1_0
    (select (cmpi .slt idx (broadcastInDim S330000 ![] bcast_S_S330000 (constantI S_ 32 0#32)))
      (addi idx (broadcastInDim S330000 ![] bcast_S_S330000 (constantI S_ 32 10000#32))) idx)

/-- One row of the edge list (`row` is the slice's offset: ![0, 0] the sources, ![1, 0] the targets) followed by the
    self loops 0 … 9999. -/
def withLoops (row : Fin 2 → Nat) (hrow : S2x320000.Slices row S1x320000) (e : IVec S2x320000 32) : IVec S330000 32 :=
  concatenate S330000 0
    [⟨S320000, shapeCast S320000 (extractStridedSlice S1x320000 row e hrow) shapeCasts_S1x320000_S320000⟩,
     ⟨S10000, iotaInDim S10000 32 0⟩] concatenates_S320000_S10000_S330000_d0

/-- d = deg^(-1/2) where the in-degree (self loop included) is positive, 0 elsewhere; `dst` is the target list. -/
def invSqrtDegree (dst : IVec S330000 32) : FVec F S10000 .f32 :=
  let deg : FVec F S10000 .f32 :=
    Host.scatterAdd scatter_S10000_S330000x1_S330000_n_0_0_1
      (broadcastInDim S10000 ![] bcast_S_S10000 (constant S_ .f32 0x00000000#32))
      (broadcastInDim S330000x1 ![0] bcast_S330000_S330000x1_0 dst)
      (broadcastInDim S330000 ![] bcast_S_S330000 (constant S_ .f32 0x3F800000#32))
  select (cmpf .ogt deg (broadcastInDim S10000 ![] bcast_S_S10000 (constant S_ .f32 0x00000000#32)))
    (Host.rsqrt deg)
    (broadcastInDim S10000 ![] bcast_S_S10000 (id (constant S_ .f32 0x00000000#32)))

/-- The GCN layer: normalised sum of the neighbours' rows of `h` (self loop included), plus the bias row. -/
def aggregate (h : FVec F S10000x128 .f32) (e : IVec S2x320000 32) (b : FVec F S128 .f32) : FVec F S10000x128 .f32 :=
  let src : IVec S330000 32 := withLoops ![0, 0] slices_S2x320000_S1x320000_0_0 e
  let dst : IVec S330000 32 := withLoops ![1, 0] slices_S2x320000_S1x320000_1_0 e
  let d : FVec F S10000 .f32 := invSqrtDegree dst
  let norm : FVec F S330000 .f32 :=
    mulf (Host.gather gather_S10000_S330000x1_S330000_n_0_n_n_0_1_1 d (wrapped src))
         (Host.gather gather_S10000_S330000x1_S330000_n_0_n_n_0_1_1 d (wrapped dst))
  let msgs : FVec F S330000x128 .f32 :=
    mulf (Host.gather gather_S10000x128_S330000x1_S330000x128_1_0_n_n_0_1_1128 h (wrapped src))
         (broadcastInDim S330000x128 ![0, 1] bcast_S330000x1_S330000x128_0_1
           (broadcastInDim S330000x1 ![0] bcast_S330000_S330000x1_0 norm))
  addf
    (Host.scatterAdd scatter_S10000x128_S330000x1_S330000x128_1_0_0_1
      (broadcastInDim S10000x128 ![] bcast_S_S10000x128 (constant S_ .f32 0x00000000#32))
      (broadcastInDim S330000x1 ![0] bcast_S330000_S330000x1_0 dst) msgs)
    (broadcastInDim S10000x128 ![0, 1] bcast_S1x128_S10000x128_0_1 (broadcastInDim S1x128 ![1] bcast_S128_S1x128_1 b))

end Cert.Gcn

end
-- ==== Proof.KernelRun.lean ====
/-
  The kernel program's run with every buffer named, and what its second product is fed.

  The program is five segments in a row: the encoder's product (a grid of 10 row blocks), three stretches of host
  operations (the graph layer), and the decoder's product (a grid of 50 row blocks). `run_named` is the run of those
  segments with the post "every unscoped buffer of a core ends at the contents the last segment leaves" (`Gen.W5`), from
  which any result or argument array is read off. The remaining lemmas follow the contents through the segments: the
  result array is what the decoder's write-backs leave; the decoder's three operands at its entry are the graph layer
  of the encoder's result, the decoder weights in the 16-bit format, and the bias as a one-row matrix; the encoder's
  result is what its write-backs leave; the arguments are as launched throughout.
-/
import proofs.«110283_j59528246722864_1_alg».proof.Proof.Gen.KernelIdeal.Frame
import proofs.«110283_j59528246722864_1_alg».proof.Proof.Spec
import Idealize.ShloMosaic.Lib.StableHlo.Run

set_option maxRecDepth 16384

noncomputable section

namespace Cert.Gcn.Kernel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo
open Cert.KernelIdeal Cert.KernelIdeal.Gen Cert.KernelIdeal.Facts₀

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The run, every buffer named -/

set_option backward.isDefEq.respectTransparency.types false in
/-- Every weakly fair execution of the program terminates, nothing faulting, and every unscoped buffer of every core
    ends at the contents the last segment leaves. -/
theorem run_named : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-! ## The contents, followed through the segments -/

/-- The result array ends at what the decoder's write-backs leave. -/
theorem result_left (c : Dev nD) : W5 m ρ c (Proc.devRef .tc main_v49) = (dat1 (V4 m ρ) c).arrAt 3 cfg1.N :=
  W5_arr m ρ c 3

/-- The encoder's result array, at its region's exit, is what its write-backs leave. -/
theorem encoded_left (c : Dev nD) : V1 m ρ c main_v0 = (dat0 (V0 m ρ) c).arrAt 2 cfg0.N :=
  W1_arr m ρ c 2

/-- The encoder's region leaves every argument as launched (it reads two of them and writes none). -/
theorem kept0 (c : Dev nD) : V1 m ρ c main_arg0 = m ((c : Thread nD τ).loc main_arg0) :=
  (W1_arr m ρ c 0).trans (((dat0 (V0 m ρ) c).arrAt_in 0 rfl _).trans (A_eq0 (V0 m ρ) c 0))
theorem kept1 (c : Dev nD) : V1 m ρ c main_arg1 = m ((c : Thread nD τ).loc main_arg1) := W1_of_ne m ρ c main_arg1 (by decide)
theorem kept2 (c : Dev nD) : V1 m ρ c main_arg2 = m ((c : Thread nD τ).loc main_arg2) :=
  (W1_arr m ρ c 1).trans (((dat0 (V0 m ρ) c).arrAt_in 1 rfl _).trans (A_eq0 (V0 m ρ) c 1))
theorem kept3 (c : Dev nD) : V1 m ρ c main_arg3 = m ((c : Thread nD τ).loc main_arg3) := W1_of_ne m ρ c main_arg3 (by decide)
theorem kept4 (c : Dev nD) : V1 m ρ c main_arg4 = m ((c : Thread nD τ).loc main_arg4) := W1_of_ne m ρ c main_arg4 (by decide)
theorem kept5 (c : Dev nD) : V1 m ρ c main_arg5 = m ((c : Thread nD τ).loc main_arg5) := W1_of_ne m ρ c main_arg5 (by decide)

/-- The decoder's first operand, at its region's entry: the graph layer of the encoder's result, the edge list and
    the encoder bias. -/
theorem entry_encoded (c : Dev nD) :
    V4 m ρ c main_v46 = Cert.Gcn.aggregate (F := F) (V1 m ρ c main_v0) (V1 m ρ c main_arg1) (V1 m ρ c main_arg3) := by
  show StableHlo.after hostOps1_2 (StableHlo.after hostOps1_1 (StableHlo.after hostOps1 (W1 m ρ c))) (Proc.devRef .tc main_v46) = _
  after_results_simp <;> rfl

/-- Its second operand: the decoder weights in the 16-bit format. -/
theorem entry_weights (c : Dev nD) : V4 m ρ c main_v47 = truncf .bf16 (V1 m ρ c main_arg4) Facts₀.bitsLt_bf16_f32 := by
  show StableHlo.after hostOps1_2 (StableHlo.after hostOps1_1 (StableHlo.after hostOps1 (W1 m ρ c))) (Proc.devRef .tc main_v47) = _
  after_results_simp <;> rfl

/-- Its third operand: the decoder bias as a one-row matrix. -/
theorem entry_bias (c : Dev nD) : V4 m ρ c main_v48 = shapeCast S1x10000 (V1 m ρ c main_arg5) Facts₀.shapeCasts_S10000_S1x10000 := by
  show StableHlo.after hostOps1_2 (StableHlo.after hostOps1_1 (StableHlo.after hostOps1 (W1 m ρ c))) (Proc.devRef .tc main_v48) = _
  after_results_simp <;> rfl

end Cert.Gcn.Kernel

end
-- ==== Proof.EncodeBlocks.lean ====
/-
  The encoder's region, from blocks to the array.

  The region runs over 10 grid points; point t reads rows 1000t … 1000t+999 of the node features x [10000, 512] and the
  whole of the weights w [512, 128], and writes rows 1000t … 1000t+999 of the output [10000, 128]. Its body stores the
  product of its two loaded blocks (into a zero accumulator; the change of float format before it is the identity on
  the extended reals). Here: the body's payload at an index is the sum over k of x(p, k) · w(k, q); each input block is
  the argument array read where the output's block says; so what point t writes back is block t of
  `encode x w`; the ten blocks cover the array, so the array ends holding `encode x w`.
-/
import proofs.«110283_j59528246722864_1_alg».proof.Proof.Gen.KernelIdeal.Frame
import proofs.«110283_j59528246722864_1_alg».proof.Proof.Spec
import Idealize.ShloMosaic.Lib.Pipeline.Value
import Idealize.ShloMosaic.Lib.ValueIdx
import Idealize.ShloMosaic.PureOps.Ideal.Laws

-- membership in a rectangle of these extents recurses once per coordinate of the long axes
set_option maxRecDepth 16384

noncomputable section

namespace Cert.Gcn.Blocks

open Idealize.ShloMosaic Idealize.ShloMosaic.TcCoe Idealize.ShloMosaic.ValueIdx Idealize.SL.Sem Cert.KernelIdeal Cert.KernelIdeal.Gen
open Idealize.ShloMosaic.Pipeline (Dat)

/-! ## The body's payload at an index -/

/-- The left operand's row coordinate is the output's row. -/
theorem encode_lhs_row (i : S1000x128.Idx) (q : dot_S1000x512_S512x128_S1000x128_1_0_0_1_n_n.contr.Idx) :
    (dot_S1000x512_S512x128_S1000x128_1_0_0_1_n_n.lhsIdx i q 0).val = (i 0).val := by
  unfold DotDims.lhsIdx
  rw [dif_neg (show ¬(0 : Fin S1000x512.rank) ∈ dot_S1000x512_S512x128_S1000x128_1_0_0_1_n_n.lhsBatch by decide), dif_pos (show (0 : Fin S1000x512.rank) ∈ dot_S1000x512_S512x128_S1000x128_1_0_0_1_n_n.lhsNonContracting by decide)]
  rfl
/-- The left operand's column coordinate is the contracted index. -/
theorem encode_lhs_col (i : S1000x128.Idx) (q : dot_S1000x512_S512x128_S1000x128_1_0_0_1_n_n.contr.Idx) :
    (dot_S1000x512_S512x128_S1000x128_1_0_0_1_n_n.lhsIdx i q 1).val = (q ⟨0, by decide⟩).val :=
  dot_S1000x512_S512x128_S1000x128_1_0_0_1_n_n.lhsIdx_val_of_single rfl i q
/-- The right operand's row coordinate is the contracted index. -/
theorem encode_rhs_row (i : S1000x128.Idx) (q : dot_S1000x512_S512x128_S1000x128_1_0_0_1_n_n.contr.Idx) :
    (dot_S1000x512_S512x128_S1000x128_1_0_0_1_n_n.rhsIdx i q 0).val = (q ⟨0, by decide⟩).val :=
  dot_S1000x512_S512x128_S1000x128_1_0_0_1_n_n.rhsIdx_val_of_single rfl i q
/-- The right operand's column coordinate is the output's column. -/
theorem encode_rhs_col (i : S1000x128.Idx) (q : dot_S1000x512_S512x128_S1000x128_1_0_0_1_n_n.contr.Idx) :
    (dot_S1000x512_S512x128_S1000x128_1_0_0_1_n_n.rhsIdx i q 1).val = (i 1).val := by
  unfold DotDims.rhsIdx
  rw [dif_neg (show ¬(1 : Fin S512x128.rank) ∈ dot_S1000x512_S512x128_S1000x128_1_0_0_1_n_n.rhsBatch by decide), dif_pos (show (1 : Fin S512x128.rank) ∈ dot_S1000x512_S512x128_S1000x128_1_0_0_1_n_n.rhsNonContracting by decide)]
  rfl

/-- The payload at (p, q) is the sum over k of x0(p, k) · x1(k, q): the product into the zero accumulator is the exact
    sum over the contracted index, which is one coordinate ranging over Fin 512. -/
theorem encode_payload (x0 : Vec Ideal S1000x512 .f32) (x1 : Vec Ideal S512x128 .f32) (j : S1000x128.Idx) :
    k0_pay1 (F := Ideal) x0 x1 j = ∑ k : Fin 512, x0 (ix2 (j 0) k) * x1 (ix2 k (j 1)) := by
  unfold k0_pay1
  show FloatOps.matmul dot_S1000x512_S512x128_S1000x128_1_0_0_1_n_n none (truncf (F := Ideal) .bf16 x0 bitsLt_bf16_f32) (truncf (F := Ideal) .bf16 x1 bitsLt_bf16_f32) (constant (F := Ideal) S1000x128 .f32 0x00000000#32) j = _
  rw [Ideal.matmul_constant_zero_apply, ← Equiv.sum_comp (contrEquiv1 dot_S1000x512_S512x128_S1000x128_1_0_0_1_n_n 512 rfl rfl).symm]
  refine Finset.sum_congr rfl fun k _ => ?_
  have hk := contrEquiv1_symm_val dot_S1000x512_S512x128_S1000x128_1_0_0_1_n_n 512 rfl rfl k
  have el : dot_S1000x512_S512x128_S1000x128_1_0_0_1_n_n.lhsIdx j ((contrEquiv1 dot_S1000x512_S512x128_S1000x128_1_0_0_1_n_n 512 rfl rfl).symm k) = ix2 (j 0) k := funext fun a => Fin.ext (by
    match a with
    | ⟨0, _⟩ => exact encode_lhs_row _ _
    | ⟨1, _⟩ => exact (encode_lhs_col _ _).trans hk)
  have er : dot_S1000x512_S512x128_S1000x128_1_0_0_1_n_n.rhsIdx j ((contrEquiv1 dot_S1000x512_S512x128_S1000x128_1_0_0_1_n_n 512 rfl rfl).symm k) = ix2 k (j 1) := funext fun a => Fin.ext (by
    match a with
    | ⟨0, _⟩ => exact (encode_rhs_row _ _).trans hk
    | ⟨1, _⟩ => exact encode_rhs_col _ _)
  rw [el, er]
  rfl

/-! ## The index maps, the blocks, and what a point writes back -/

variable (V : (c : Dev nD) → (b : Ref sig .tc) → Buf (Elt Ideal) ((c : Thread nD τ).loc b))

/-- A whole-block access starts at the zero offsets. -/
theorem encode_zero_offsets : (![0, 0] : Fin 2 → Nat) = fun _ => 0 := funext fun a => by fin_cases a <;> rfl

/-- The printed index maps, decided over the 10 grid points: the features' block and the output's block at point t are
    the t-th row blocks (column block 0); the weights' block is always block (0, 0). -/
theorem encode_index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The features' block at point t, at (p, k), is the array at row 1000t + p, column k. -/
theorem features_block (c : Dev nD) (t : Fin cfg0.N) (p : Fin 1000) (k : Fin 512) (r : Fin 10000)
    (hr : r.val = t.val * 1000 + p.val) :
    iblk0 (F := Ideal) V c 0 t (ix2 p k) = V c main_arg0 (ix2 r k) := by
  obtain ⟨e0, e1, -⟩ := encode_index_facts t
  show V c main_arg0 (((cfg0.win 0).blk t).view.emb (ix2 p k)) = _
  refine congrArg _ (funext fun a => Fin.ext ?_)
  match a with
  | ⟨0, _⟩ => show win0_0.index t (0 : Fin 2) * 1000 + 1 * p.val = r.val; omega
  | ⟨1, _⟩ => show win0_0.index t (1 : Fin 2) * 512 + 1 * k.val = k.val; omega

/-- The weights' block at any point is the whole array. -/
theorem encode_weights_block (c : Dev nD) (t : Fin cfg0.N) (k : Fin 512) (q : Fin 128) :
    iblk0 (F := Ideal) V c 1 t (ix2 k q) = V c main_arg2 (ix2 k q) := by
  obtain ⟨-, -, e2, e3, -⟩ := encode_index_facts t
  show V c main_arg2 (((cfg0.win 1).blk t).view.emb (ix2 k q)) = _
  refine congrArg _ (funext fun a => Fin.ext ?_)
  match a with
  | ⟨0, _⟩ => show win0_1.index t (0 : Fin 2) * 512 + 1 * k.val = k.val; omega
  | ⟨1, _⟩ => show win0_1.index t (1 : Fin 2) * 128 + 1 * q.val = q.val; omega

/-- The output's block at point t places its row p at row 1000t + p of the array. -/
theorem encode_out_block_row (t : Fin cfg0.N) (j : S1000x128.Idx) :
    ((((cfg0.win 2).blk t).view.emb j) 0).val = t.val * 1000 + (j 0).val := by
  obtain ⟨-, -, -, -, e4, -⟩ := encode_index_facts t
  show win0_2.index t (0 : Fin 2) * 1000 + 1 * (j 0).val = _
  omega
/-- The output's block at any point places its column q at column q of the array. -/
theorem encode_out_block_col (t : Fin cfg0.N) (j : S1000x128.Idx) :
    ((((cfg0.win 2).blk t).view.emb j) 1).val = (j 1).val := by
  obtain ⟨-, -, -, -, -, e5⟩ := encode_index_facts t
  show win0_2.index t (1 : Fin 2) * 128 + 1 * (j 1).val = _
  omega

/-- What point t writes back is block t of `encode` of the two argument arrays as the region finds them. -/
theorem encode_flushed (c : Dev nD) (t : Fin cfg0.N) :
    (dat0 (F := Ideal) V c).flushed 2 t
      = ((cfg0.win 2).blk t).view.read (Elt Ideal) (Cert.Gcn.encode (V c main_arg0) (V c main_arg2)) := by
  show (cfg0.win 2).cut (grid0.coords t) ((dat0 V c).after 2 t) = _
  rw [after0_2]
  unfold out0_2
  rw [View.canon_unit_zero encode_zero_offsets]
  simp only [View.ld_unit_zero (S := S1000x512) encode_zero_offsets, View.ld_unit_zero (S := S512x128) encode_zero_offsets]
  funext j
  show k0_pay1 (iblk0 V c 0 t) (iblk0 V c 1 t) j
    = Cert.Gcn.encode (V c main_arg0) (V c main_arg2) (((cfg0.win 2).blk t).view.emb j)
  rw [encode_payload]
  unfold Cert.Gcn.encode
  refine Finset.sum_congr rfl fun k _ => ?_
  rw [features_block V c t (j 0) k _ (encode_out_block_row t j), encode_weights_block V c t k (j 1)]
  have hq : ((((cfg0.win 2).blk t).view.emb j) 1) = j 1 := Fin.ext (encode_out_block_col t j)
  rw [hq]

/-! ## The blocks cover the array -/

/-- An index of the array is in point t's block iff each coordinate is in the block's range on its axis. -/
theorem encode_mem_out_block (t : Fin cfg0.N) (i : S10000x128.Idx) :
    i ∈ ((cfg0.win 2).blk t).view.set ↔ ∀ a : Fin 2, win0_2.index t a * S1000x128.size a ≤ (i a).val ∧ (i a).val < win0_2.index t a * S1000x128.size a + S1000x128.size a := by
  show i ∈ ((View.whole main_v0).slice (win0_2.rect t)).set ↔ _
  rw [View.set_slice_whole, Rect.mem_set_unit]
  exact Iff.rfl

/-- Row r lies in the block of point r / 1000, and every point writes back. -/
theorem encode_cover (i : S10000x128.Idx) :
    ∃ t : Fin cfg0.N, (cfg0.win 2).flush t = true ∧ i ∈ ((cfg0.win 2).blk t).view.set := by
  have hi0 : (i 0).val < 10000 := (i 0).isLt
  have hi1 : (i 1).val < 128 := (i 1).isLt
  have hN : (i 0).val / 1000 < cfg0.N := by rw [show cfg0.N = 10 from N_0]; omega
  obtain ⟨-, -, -, -, e4, e5⟩ := encode_index_facts ⟨(i 0).val / 1000, hN⟩
  refine ⟨⟨(i 0).val / 1000, hN⟩, flush0_2 _, ?_⟩
  rw [encode_mem_out_block]
  intro a
  match a with
  | ⟨0, _⟩ =>
    show win0_2.index ⟨(i 0).val / 1000, hN⟩ (0 : Fin 2) * 1000 ≤ (i 0).val ∧ (i 0).val < win0_2.index ⟨(i 0).val / 1000, hN⟩ (0 : Fin 2) * 1000 + 1000
    rw [e4]; show (i 0).val / 1000 * 1000 ≤ (i 0).val ∧ (i 0).val < (i 0).val / 1000 * 1000 + 1000; omega
  | ⟨1, _⟩ =>
    show win0_2.index ⟨(i 0).val / 1000, hN⟩ (1 : Fin 2) * 128 ≤ (i 1).val ∧ (i 1).val < win0_2.index ⟨(i 0).val / 1000, hN⟩ (1 : Fin 2) * 128 + 128
    rw [e5]; omega

/-- The output array after the region is `encode` of the features and the weights. -/
theorem encode_array (c : Dev nD) :
    (dat0 (F := Ideal) V c).arrAt 2 cfg0.N = Cert.Gcn.encode (V c main_arg0) (V c main_arg2) :=
  (dat0 (F := Ideal) V c).arrAt_eq_of_cover 2 _ (fun t _ => encode_flushed V c t) encode_cover

end Cert.Gcn.Blocks

end
-- ==== Proof.DecodeBlocks.lean ====
/-
  The decoder's region, from blocks to the array.

  The region runs over 50 grid points; point t reads rows 200t … 200t+199 of z [10000, 128], the whole of the weights
  w [128, 10000] and the whole of the bias row b [1, 10000], and writes rows 200t … 200t+199 of the output
  [10000, 10000]. Its body stores the logistic function of the product of its first two loaded blocks (into a zero
  accumulator; the reshapes to the same shape and the change of float format are the identity on the extended reals) plus
  the bias row laid along every row. Here: the body's payload at (p, q) is σ(∑ k, z(p, k) · w(k, q) + b(0, q)); each
  input block is the argument array read where the output's block says; so what point t writes back is block t of
  `decode z w b`; the fifty blocks cover the array, so the array ends holding `decode z w b`.
-/
import proofs.«110283_j59528246722864_1_alg».proof.Proof.Gen.KernelIdeal.Frame
import proofs.«110283_j59528246722864_1_alg».proof.Proof.Spec
import Idealize.ShloMosaic.Lib.Pipeline.Value
import Idealize.ShloMosaic.Lib.ValueIdx
import Idealize.ShloMosaic.PureOps.Ideal.Laws

-- membership in a rectangle of these extents recurses once per coordinate of the long axes
set_option maxRecDepth 16384

noncomputable section

namespace Cert.Gcn.Blocks

open Idealize.ShloMosaic Idealize.ShloMosaic.TcCoe Idealize.ShloMosaic.ValueIdx Idealize.SL.Sem Cert.KernelIdeal Cert.KernelIdeal.Gen
open Idealize.ShloMosaic.Pipeline (Dat)

/-! ## The body's payload at an index -/

/-- The left operand's row coordinate is the output's row. -/
theorem decode_lhs_row (i : S200x10000.Idx) (q : dot_S200x128_S128x10000_S200x10000_1_0_0_1_n_n.contr.Idx) :
    (dot_S200x128_S128x10000_S200x10000_1_0_0_1_n_n.lhsIdx i q 0).val = (i 0).val := by
  unfold DotDims.lhsIdx
  rw [dif_neg (show ¬(0 : Fin S200x128.rank) ∈ dot_S200x128_S128x10000_S200x10000_1_0_0_1_n_n.lhsBatch by decide), dif_pos (show (0 : Fin S200x128.rank) ∈ dot_S200x128_S128x10000_S200x10000_1_0_0_1_n_n.lhsNonContracting by decide)]
  rfl
/-- The left operand's column coordinate is the contracted index. -/
theorem decode_lhs_col (i : S200x10000.Idx) (q : dot_S200x128_S128x10000_S200x10000_1_0_0_1_n_n.contr.Idx) :
    (dot_S200x128_S128x10000_S200x10000_1_0_0_1_n_n.lhsIdx i q 1).val = (q ⟨0, by decide⟩).val :=
  dot_S200x128_S128x10000_S200x10000_1_0_0_1_n_n.lhsIdx_val_of_single rfl i q
/-- The right operand's row coordinate is the contracted index. -/
theorem decode_rhs_row (i : S200x10000.Idx) (q : dot_S200x128_S128x10000_S200x10000_1_0_0_1_n_n.contr.Idx) :
    (dot_S200x128_S128x10000_S200x10000_1_0_0_1_n_n.rhsIdx i q 0).val = (q ⟨0, by decide⟩).val :=
  dot_S200x128_S128x10000_S200x10000_1_0_0_1_n_n.rhsIdx_val_of_single rfl i q
/-- The right operand's column coordinate is the output's column. -/
theorem decode_rhs_col (i : S200x10000.Idx) (q : dot_S200x128_S128x10000_S200x10000_1_0_0_1_n_n.contr.Idx) :
    (dot_S200x128_S128x10000_S200x10000_1_0_0_1_n_n.rhsIdx i q 1).val = (i 1).val := by
  unfold DotDims.rhsIdx
  rw [dif_neg (show ¬(1 : Fin S128x10000.rank) ∈ dot_S200x128_S128x10000_S200x10000_1_0_0_1_n_n.rhsBatch by decide), dif_pos (show (1 : Fin S128x10000.rank) ∈ dot_S200x128_S128x10000_S200x10000_1_0_0_1_n_n.rhsNonContracting by decide)]
  rfl

/-- The product into the zero accumulator, at (p, q), is the sum over k of x0(p, k) · x1(k, q): the exact sum over the
    contracted index, which is one coordinate ranging over Fin 128. -/
theorem decode_product_apply (x0 : FVec Ideal S200x128 .bf16) (x1 : FVec Ideal S128x10000 .bf16) (j : S200x10000.Idx) :
    FloatOps.matmul dot_S200x128_S128x10000_S200x10000_1_0_0_1_n_n none x0 x1 (constant (F := Ideal) S200x10000 .f32 0x00000000#32) j
      = ∑ k : Fin 128, x0 (ix2 (j 0) k) * x1 (ix2 k (j 1)) := by
  rw [Ideal.matmul_constant_zero_apply, ← Equiv.sum_comp (contrEquiv1 dot_S200x128_S128x10000_S200x10000_1_0_0_1_n_n 128 rfl rfl).symm]
  refine Finset.sum_congr rfl fun k _ => ?_
  have hk := contrEquiv1_symm_val dot_S200x128_S128x10000_S200x10000_1_0_0_1_n_n 128 rfl rfl k
  have el : dot_S200x128_S128x10000_S200x10000_1_0_0_1_n_n.lhsIdx j ((contrEquiv1 dot_S200x128_S128x10000_S200x10000_1_0_0_1_n_n 128 rfl rfl).symm k) = ix2 (j 0) k := funext fun a => Fin.ext (by
    match a with
    | ⟨0, _⟩ => exact decode_lhs_row _ _
    | ⟨1, _⟩ => exact (decode_lhs_col _ _).trans hk)
  have er : dot_S200x128_S128x10000_S200x10000_1_0_0_1_n_n.rhsIdx j ((contrEquiv1 dot_S200x128_S128x10000_S200x10000_1_0_0_1_n_n 128 rfl rfl).symm k) = ix2 k (j 1) := funext fun a => Fin.ext (by
    match a with
    | ⟨0, _⟩ => exact (decode_rhs_row _ _).trans hk
    | ⟨1, _⟩ => exact decode_rhs_col _ _)
  rw [el, er]
  rfl

/-- The bias row laid along every row reads, at (p, q), the row at (0, q). -/
theorem bias_rows_apply (x2 : Vec Ideal S1x10000 .f32) (j : S200x10000.Idx) :
    broadcastTo S200x10000 x2 broadcasts_S1x10000_S200x10000 j = x2 (ix2 0 (j 1)) := by
  refine broadcastTo_apply x2 broadcasts_S1x10000_S200x10000 j (ix2 0 (j 1)) fun a => ?_
  match a with
  | ⟨0, _⟩ => rfl
  | ⟨1, _⟩ =>
    show (j 1).val = if (10000 : Nat) = 1 then 0 else (j 1).val
    rw [if_neg (by decide)]

/-- The payload at (p, q) is σ(∑ k, x0(p, k) · x1(k, q) + x2(0, q)). -/
theorem decode_payload (x0 : Vec Ideal S200x128 .f32) (x1 : Vec Ideal S128x10000 .bf16) (x2 : Vec Ideal S1x10000 .f32)
    (j : S200x10000.Idx) :
    k1_pay1 (F := Ideal) x0 x1 x2 j
      = Ideal.logistic ((∑ k : Fin 128, x0 (ix2 (j 0) k) * x1 (ix2 k (j 1))) + x2 (ix2 0 (j 1))) := by
  unfold k1_pay1
  simp only [shapeCast_self]
  show Ideal.logistic (FloatOps.matmul dot_S200x128_S128x10000_S200x10000_1_0_0_1_n_n none (truncf (F := Ideal) .bf16 x0 bitsLt_bf16_f32) x1 (constant (F := Ideal) S200x10000 .f32 0x00000000#32) j
      + broadcastTo S200x10000 x2 broadcasts_S1x10000_S200x10000 j) = _
  rw [decode_product_apply, bias_rows_apply]
  rfl

/-! ## The index maps, the blocks, and what a point writes back -/

variable (V : (c : Dev nD) → (b : Ref sig .tc) → Buf (Elt Ideal) ((c : Thread nD τ).loc b))

/-- A whole-block access starts at the zero offsets. -/
theorem decode_zero_offsets : (![0, 0] : Fin 2 → Nat) = fun _ => 0 := funext fun a => by fin_cases a <;> rfl

/-- The printed index maps, decided over the 50 grid points: the block of z and the output's block at point t are the
    t-th row blocks (column block 0); the weights' block and the bias row's block are always block (0, 0). -/
theorem decode_index_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The block of z at point t, at (p, k), is the array at row 200t + p, column k. -/
theorem z_block (c : Dev nD) (t : Fin cfg1.N) (p : Fin 200) (k : Fin 128) (r : Fin 10000)
    (hr : r.val = t.val * 200 + p.val) :
    iblk1 (F := Ideal) V c 0 t (ix2 p k) = V c main_v46 (ix2 r k) := by
  obtain ⟨e0, e1, -⟩ := decode_index_facts t
  show V c main_v46 (((cfg1.win 0).blk t).view.emb (ix2 p k)) = _
  refine congrArg _ (funext fun a => Fin.ext ?_)
  match a with
  | ⟨0, _⟩ => show win1_0.index t (0 : Fin 2) * 200 + 1 * p.val = r.val; omega
  | ⟨1, _⟩ => show win1_0.index t (1 : Fin 2) * 128 + 1 * k.val = k.val; omega

/-- The weights' block at any point is the whole array. -/
theorem decode_weights_block (c : Dev nD) (t : Fin cfg1.N) (k : Fin 128) (q : Fin 10000) :
    iblk1 (F := Ideal) V c 1 t (ix2 k q) = V c main_v47 (ix2 k q) := by
  obtain ⟨-, -, e2, e3, -⟩ := decode_index_facts t
  show V c main_v47 (((cfg1.win 1).blk t).view.emb (ix2 k q)) = _
  refine congrArg _ (funext fun a => Fin.ext ?_)
  match a with
  | ⟨0, _⟩ => show win1_1.index t (0 : Fin 2) * 128 + 1 * k.val = k.val; omega
  | ⟨1, _⟩ => show win1_1.index t (1 : Fin 2) * 10000 + 1 * q.val = q.val; omega

/-- The bias row's block at any point is the whole row. -/
theorem bias_block (c : Dev nD) (t : Fin cfg1.N) (z0 : Fin 1) (q : Fin 10000) :
    iblk1 (F := Ideal) V c 2 t (ix2 z0 q) = V c main_v48 (ix2 z0 q) := by
  obtain ⟨-, -, -, -, e4, e5, -⟩ := decode_index_facts t
  show V c main_v48 (((cfg1.win 2).blk t).view.emb (ix2 z0 q)) = _
  refine congrArg _ (funext fun a => Fin.ext ?_)
  match a with
  | ⟨0, _⟩ => show win1_2.index t (0 : Fin 2) * 1 + 1 * z0.val = z0.val; omega
  | ⟨1, _⟩ => show win1_2.index t (1 : Fin 2) * 10000 + 1 * q.val = q.val; omega

/-- The output's block at point t places its row p at row 200t + p of the array. -/
theorem decode_out_block_row (t : Fin cfg1.N) (j : S200x10000.Idx) :
    ((((cfg1.win 3).blk t).view.emb j) 0).val = t.val * 200 + (j 0).val := by
  obtain ⟨-, -, -, -, -, -, e6, -⟩ := decode_index_facts t
  show win1_3.index t (0 : Fin 2) * 200 + 1 * (j 0).val = _
  omega
/-- The output's block at any point places its column q at column q of the array. -/
theorem decode_out_block_col (t : Fin cfg1.N) (j : S200x10000.Idx) :
    ((((cfg1.win 3).blk t).view.emb j) 1).val = (j 1).val := by
  obtain ⟨-, -, -, -, -, -, -, e7⟩ := decode_index_facts t
  show win1_3.index t (1 : Fin 2) * 10000 + 1 * (j 1).val = _
  omega

/-- What point t writes back is block t of `decode` of the three argument arrays as the region finds them. -/
theorem decode_flushed (c : Dev nD) (t : Fin cfg1.N) :
    (dat1 (F := Ideal) V c).flushed 3 t
      = ((cfg1.win 3).blk t).view.read (Elt Ideal) (Cert.Gcn.decode (V c main_v46) (V c main_v47) (V c main_v48)) := by
  show (cfg1.win 3).cut (grid1.coords t) ((dat1 V c).after 3 t) = _
  rw [after1_3]
  unfold out1_3
  rw [View.canon_unit_zero decode_zero_offsets]
  simp only [View.ld_unit_zero (S := S200x128) decode_zero_offsets, View.ld_unit_zero (S := S128x10000) decode_zero_offsets,
    View.ld_unit_zero (S := S1x10000) decode_zero_offsets]
  funext j
  show k1_pay1 (iblk1 V c 0 t) (iblk1 V c 1 t) (iblk1 V c 2 t) j
    = Cert.Gcn.decode (V c main_v46) (V c main_v47) (V c main_v48) (((cfg1.win 3).blk t).view.emb j)
  rw [decode_payload]
  unfold Cert.Gcn.decode
  have hq : ((((cfg1.win 3).blk t).view.emb j) 1) = j 1 := Fin.ext (decode_out_block_col t j)
  rw [hq, bias_block V c t 0 (j 1)]
  congr 2
  refine Finset.sum_congr rfl fun k _ => ?_
  rw [z_block V c t (j 0) k _ (decode_out_block_row t j), decode_weights_block V c t k (j 1)]

/-! ## The blocks cover the array -/

/-- An index of the array is in point t's block iff each coordinate is in the block's range on its axis. -/
theorem decode_mem_out_block (t : Fin cfg1.N) (i : S10000x10000.Idx) :
    i ∈ ((cfg1.win 3).blk t).view.set ↔ ∀ a : Fin 2, win1_3.index t a * S200x10000.size a ≤ (i a).val ∧ (i a).val < win1_3.index t a * S200x10000.size a + S200x10000.size a := by
  show i ∈ ((View.whole main_v49).slice (win1_3.rect t)).set ↔ _
  rw [View.set_slice_whole, Rect.mem_set_unit]
  exact Iff.rfl

/-- Row r lies in the block of point r / 200, and every point writes back. -/
theorem decode_cover (i : S10000x10000.Idx) :
    ∃ t : Fin cfg1.N, (cfg1.win 3).flush t = true ∧ i ∈ ((cfg1.win 3).blk t).view.set := by
  have hi0 : (i 0).val < 10000 := (i 0).isLt
  have hi1 : (i 1).val < 10000 := (i 1).isLt
  have hN : (i 0).val / 200 < cfg1.N := by rw [show cfg1.N = 50 from N_1]; omega
  obtain ⟨-, -, -, -, -, -, e6, e7⟩ := decode_index_facts ⟨(i 0).val / 200, hN⟩
  refine ⟨⟨(i 0).val / 200, hN⟩, flush1_3 _, ?_⟩
  rw [decode_mem_out_block]
  intro a
  match a with
  | ⟨0, _⟩ =>
    show win1_3.index ⟨(i 0).val / 200, hN⟩ (0 : Fin 2) * 200 ≤ (i 0).val ∧ (i 0).val < win1_3.index ⟨(i 0).val / 200, hN⟩ (0 : Fin 2) * 200 + 200
    rw [e6]; show (i 0).val / 200 * 200 ≤ (i 0).val ∧ (i 0).val < (i 0).val / 200 * 200 + 200; omega
  | ⟨1, _⟩ =>
    show win1_3.index ⟨(i 0).val / 200, hN⟩ (1 : Fin 2) * 10000 ≤ (i 1).val ∧ (i 1).val < win1_3.index ⟨(i 0).val / 200, hN⟩ (1 : Fin 2) * 10000 + 10000
    rw [e7]; omega

/-- The output array after the region is `decode` of z, the weights and the bias row. -/
theorem decode_array (c : Dev nD) :
    (dat1 (F := Ideal) V c).arrAt 3 cfg1.N = Cert.Gcn.decode (V c main_v46) (V c main_v47) (V c main_v48) :=
  (dat1 (F := Ideal) V c).arrAt_eq_of_cover 3 _ (fun t _ => decode_flushed V c t) decode_cover

end Cert.Gcn.Blocks

end
-- ==== Proof.KernelValue.lean ====
/-
  The kernel program's result as one function of its arguments.

  Reading the run's contents backwards: the result array is the decoder's function of its three operands at entry
  (its 50 row blocks cover the array); those are the graph layer of the encoder's result, the weights in the 16-bit
  format and the bias as a row; the encoder's result is the encoder's function of the features and its weights (its 10
  row blocks cover the array); and no segment before them writes an argument. So the program computes
  `autoencoder` of its six arguments, at the extended reals.
-/
import proofs.«110283_j59528246722864_1_alg».proof.Proof.KernelRun
import proofs.«110283_j59528246722864_1_alg».proof.Proof.EncodeBlocks
import proofs.«110283_j59528246722864_1_alg».proof.Proof.DecodeBlocks

set_option maxRecDepth 16384

noncomputable section

namespace Cert.Gcn

open Idealize.ShloMosaic Cert.KernelIdeal

/-- The graph autoencoder at the extended reals: encode, aggregate over the graph, decode. The decoder takes its weights
    in the 16-bit format (the identity on the extended reals) and its bias as a one-row matrix. -/
def autoencoder (x : FVec Ideal S10000x512 .f32) (e : IVec S2x320000 32) (w : FVec Ideal S512x128 .f32)
    (b : FVec Ideal S128 .f32) (wd : FVec Ideal S128x10000 .f32) (bd : FVec Ideal S10000 .f32) :
    FVec Ideal S10000x10000 .f32 :=
  decode (aggregate (F := Ideal) (encode x w) e b) (truncf .bf16 wd Facts₀.bitsLt_bf16_f32 : FVec Ideal S128x10000 .bf16)
    (shapeCast S1x10000 bd Facts₀.shapeCasts_S10000_S1x10000 : FVec Ideal S1x10000 .f32)

end Cert.Gcn

namespace Cert.Gcn.Kernel

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-- The result array after the last segment is the autoencoder of the launch contents of the arguments. -/
theorem result_value (c : Dev nD) :
    W5 m ρ c (Proc.devRef .tc main_v49)
      = autoencoder (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  -- the encoder's result, then the decoder's three operands at its entry, as functions of the launch contents
  have hE : V1 m ρ c main_v0 = encode (m ((c : Thread nD τ).loc main_arg0)) (m ((c : Thread nD τ).loc main_arg2)) :=
    (encoded_left m ρ c).trans (Blocks.encode_array (V0 m ρ) c)
  have h46 : V4 m ρ c main_v46 = aggregate (F := Ideal) (encode (m ((c : Thread nD τ).loc main_arg0)) (m ((c : Thread nD τ).loc main_arg2)))
      (m ((c : Thread nD τ).loc main_arg1)) (m ((c : Thread nD τ).loc main_arg3)) :=
    (entry_encoded m ρ c).trans (by rw [hE, kept1, kept3])
  have h47 : V4 m ρ c main_v47 = truncf (F := Ideal) (s := S128x10000) (φ := .f32) .bf16 (m ((c : Thread nD τ).loc main_arg4)) Facts₀.bitsLt_bf16_f32 :=
    (entry_weights m ρ c).trans (by rw [kept4])
  have h48 : V4 m ρ c main_v48 = shapeCast (s := S10000) S1x10000 (m ((c : Thread nD τ).loc main_arg5)) Facts₀.shapeCasts_S10000_S1x10000 :=
    (entry_bias m ρ c).trans (by rw [kept5])
  refine (result_left m ρ c).trans ((Blocks.decode_array (V4 m ρ) c).trans ?_)
  rw [h46, h47, h48]
  rfl

/-- The kernel program's run: it ends with the result array at the autoencoder of the arguments, the arguments unchanged. -/
theorem run_value : θ_run defs (onTc (τ := τ) (main (F := Ideal))) ⟨m, fun _ => 0, ρ⟩ (fun r => ∀ c : Dev nD,
      r.2.mem ((c : Thread nD τ).loc main_v49)
        = autoencoder (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) :=
  (θ_run defs _ _).mono (fun r h c =>
      ⟨(h c _ (mem_uc main_v49 (by decide))).trans (result_value m ρ c),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c)⟩)
    (run_named m ρ)

end Cert.Gcn.Kernel

end
-- ==== Proof.RefValue.lean ====
/-
  The reference program's result as the three functions of Spec.lean.

  The reference's last stage is read one operation at a time (RefRead.lean): its entry (r, c) is
  1 / (1 + exp (-(∑ k, z(r, k) · W_dec(k, c) + b_dec(c)))), where z is the graph layer applied to the first dense
  product. Three facts put this in the form `decode (aggregate (encode x W_enc) edges b_enc) W_dec b_dec`:
  * the first dense product is `encode`: the same sum over k : Fin 512, the index pairs written as `ix2`;
  * the graph layer of the reference is `aggregate` of that product: the same composition of host operations;
  * the last layer is `decode`: the same sum over k : Fin 128; the bias row b_dec reshaped to [1, 10000] read at (0, c)
    is b_dec at c; on the extended reals a change of float format is the identity; and 1 / (1 + exp (-t)) with the
    constant 1 given by its bit pattern is the logistic function of t.
-/
import proofs.«110283_j59528246722864_1_alg».proof.Proof.RefRead
import proofs.«110283_j59528246722864_1_alg».proof.Proof.Spec
import Idealize.ShloMosaic.Lib.Pipeline.Value
import Idealize.ShloMosaic.Lib.ValueIdx
import Idealize.ShloMosaic.PureOps.Ideal.Laws
import Idealize.ShloMosaic.PureOps.IdealRules

noncomputable section

namespace Cert.Gcn.Ref

open Idealize.ShloMosaic Idealize.ShloMosaic.ValueIdx Cert.ReferenceIdeal

/-! ## The first dense product -/

/-- The reference's first product is `encode`: both are ∑ k : Fin 512, x(r, k) · w(k, c). -/
theorem encode_eq (x0 : (⟨S10000x512, .f32⟩ : BufTy).Contents (Elt Ideal))
    (x2 : (⟨S512x128, .f32⟩ : BufTy).Contents (Elt Ideal)) :
    ReadP.val_main_v0 (F := Ideal) x0 x2 = Cert.Gcn.encode x0 x2 := by
  funext i
  rw [ReadP.val_main_v0_apply]
  -- the left operand is read at (r, k), the right one at (k, c)
  have el : ∀ k : Fin 512, ReadP.lidx_main_v0 i k = ix2 (i 0) k := fun k =>
    funext fun a => Fin.ext (by match a with | ⟨0, _⟩ => rfl | ⟨1, _⟩ => rfl)
  have er : ∀ k : Fin 512, ReadP.ridx_main_v0 i k = ix2 k (i 1) := fun k =>
    funext fun a => Fin.ext (by match a with | ⟨0, _⟩ => rfl | ⟨1, _⟩ => rfl)
  unfold Cert.Gcn.encode
  refine Finset.sum_congr rfl fun k _ => ?_
  rw [el k, er k]
  rfl

/-! ## The graph layer -/

set_option maxRecDepth 8192 in
/-- The reference's graph layer is `aggregate` of its first product: the same composition of host operations. -/
theorem aggregate_eq (x0 : (⟨S10000x512, .f32⟩ : BufTy).Contents (Elt Ideal))
    (x1 : (⟨S2x320000, .i32⟩ : BufTy).Contents (Elt Ideal))
    (x2 : (⟨S512x128, .f32⟩ : BufTy).Contents (Elt Ideal))
    (x3 : (⟨S128, .f32⟩ : BufTy).Contents (Elt Ideal)) :
    ReadP.val_main_v46 (F := Ideal) x0 x1 x2 x3
      = Cert.Gcn.aggregate (F := Ideal) (ReadP.val_main_v0 (F := Ideal) x0 x2) x1 x3 := rfl

/-! ## The last layer -/

/-- 1 / (1 + exp (-t)), the constant 1 given by its 32-bit pattern, is the logistic function of t. -/
theorem logistic_of_ops (t : Ideal .f32) :
    FloatOps.hostDivf (FloatOps.ofBits (F := Ideal) .f32 0x3F800000#32)
        (FloatOps.addf (FloatOps.ofBits (F := Ideal) .f32 0x3F800000#32)
          (FloatOps.hostUnary .exp (FloatOps.hostNegf t)))
      = Ideal.logistic t := by
  have h1 : Ideal.ofBits .f32 0x3F800000#32 = 1 := IdealRules.sign_bit.ideal_onePat .f32
  rw [Ideal.ofBits_def, h1]
  rfl

/-- The last layer at one entry (r, c), for any input `z` of the second product: the reference's chain of
    operations gives `decode z W_dec b_dec` at (r, c). The sum is over k : Fin 128 of z(r, k) · W_dec(k, c); the bias
    is b_dec(c), which is the [1, 10000] row at (0, c). -/
theorem decode_entry (z : (⟨S10000x128, .f32⟩ : BufTy).Contents (Elt Ideal))
    (x4 : (⟨S128x10000, .f32⟩ : BufTy).Contents (Elt Ideal))
    (x5 : (⟨S10000, .f32⟩ : BufTy).Contents (Elt Ideal)) (i : S10000x10000.Idx) :
    FloatOps.hostDivf (FloatOps.ofBits (F := Ideal) .f32 0x3F800000#32)
        (FloatOps.addf (FloatOps.ofBits (F := Ideal) .f32 0x3F800000#32)
          (FloatOps.hostUnary .exp (FloatOps.hostNegf
            (FloatOps.addf (∑ k : Fin 128, z (ReadP.lidx_main_v47 i k) * x4 (ReadP.ridx_main_v47 i k))
              (x5 (ReadP.idx_main_v48 (ReadP.idx_main_v49 i)))))))
      = Cert.Gcn.decode z (truncf (F := Ideal) .bf16 x4 Cert.KernelIdeal.Facts₀.bitsLt_bf16_f32)
          (shapeCast Cert.KernelIdeal.S1x10000 x5 Cert.KernelIdeal.Facts₀.shapeCasts_S10000_S1x10000) i := by
  rw [logistic_of_ops]
  -- the left operand is read at (r, k), the right one at (k, c)
  have el : ∀ k : Fin 128, ReadP.lidx_main_v47 i k = ix2 (i 0) k := fun k =>
    funext fun a => Fin.ext (by match a with | ⟨0, _⟩ => rfl | ⟨1, _⟩ => rfl)
  have er : ∀ k : Fin 128, ReadP.ridx_main_v47 i k = ix2 k (i 1) := fun k =>
    funext fun a => Fin.ext (by match a with | ⟨0, _⟩ => rfl | ⟨1, _⟩ => rfl)
  -- the row [1, 10000] at (0, c) and the vector [10000] at c have the same row-major position c
  have hb : shapeCast Cert.KernelIdeal.S1x10000 x5 Cert.KernelIdeal.Facts₀.shapeCasts_S10000_S1x10000
        (ix2 (0 : Fin 1) (i 1)) = x5 (ReadP.idx_main_v48 (ReadP.idx_main_v49 i)) :=
    shapeCast_apply x5 _ _ _ (by
      rw [Shape.rowMajor_val_two, Shape.rowMajor_val_one]
      show (i 1).val = 0 * 10000 + (i 1).val
      omega)
  have hs : (∑ k : Fin 128, z (ReadP.lidx_main_v47 i k) * x4 (ReadP.ridx_main_v47 i k))
      = ∑ k : Fin 128, z (ix2 (i 0) k) * x4 (ix2 k (i 1)) :=
    Finset.sum_congr rfl fun k _ => by rw [el k, er k]; rfl
  rw [hs, ← hb]
  rfl

/-- The reference's result is the autoencoder of Spec.lean, with the second product fed as the kernel's program feeds
    it: W_dec converted to the 16-bit format, b_dec reshaped to a [1, 10000] row. -/
theorem reference_value (x0 : (⟨Cert.ReferenceIdeal.S10000x512, .f32⟩ : BufTy).Contents (Elt Ideal))
    (x1 : (⟨Cert.ReferenceIdeal.S2x320000, .i32⟩ : BufTy).Contents (Elt Ideal))
    (x2 : (⟨Cert.ReferenceIdeal.S512x128, .f32⟩ : BufTy).Contents (Elt Ideal))
    (x3 : (⟨Cert.ReferenceIdeal.S128, .f32⟩ : BufTy).Contents (Elt Ideal))
    (x4 : (⟨Cert.ReferenceIdeal.S128x10000, .f32⟩ : BufTy).Contents (Elt Ideal))
    (x5 : (⟨Cert.ReferenceIdeal.S10000, .f32⟩ : BufTy).Contents (Elt Ideal)) :
    Cert.ReferenceIdeal.ReadP.val_main_v56 (F := Ideal) x0 x1 x2 x3 x4 x5
      = Cert.Gcn.decode (Cert.Gcn.aggregate (F := Ideal) (Cert.Gcn.encode x0 x2) x1 x3)
          (truncf (F := Ideal) .bf16 x4 Cert.KernelIdeal.Facts₀.bitsLt_bf16_f32)
          (shapeCast Cert.KernelIdeal.S1x10000 x5 Cert.KernelIdeal.Facts₀.shapeCasts_S10000_S1x10000) := by
  funext i
  rw [ReadP.val_main_v56_apply, ReadP.val_main_v55_apply, ReadP.val_main_cst_10_apply, ReadP.val_main_v54_apply,
    ReadP.val_main_v53_apply, ReadP.val_main_cst_9_apply, ReadP.val_main_v52_apply, ReadP.val_main_v51_apply,
    ReadP.val_main_v50_apply, ReadP.val_main_v47_apply, ReadP.val_main_v49_apply, ReadP.val_main_v48_apply,
    aggregate_eq, encode_eq]
  exact decode_entry _ x4 x5 i

end Cert.Gcn.Ref

end
-- ==== Proof.lean ====
/-
  A graph autoencoder on 10000 nodes: a dense encoder (node features [10000, 512] times weights [512, 128]), one GCN
  layer over 320000 edges plus a self loop per node (degree-normalised sum of the neighbours' rows, plus a bias), and a
  dense decoder with the logistic function (times weights [128, 10000], plus a bias, through σ(t) = 1 / (1 + e^(-t))),
  giving a [10000, 10000] matrix. The kernel program computes the two dense layers on the matrix unit, block by block
  (10 blocks of 1000 rows for the encoder, 50 blocks of 200 rows for the decoder, the operands rounded to the 16-bit format
  on the way in), with the GCN layer as host operations between them; the reference computes everything with whole-array
  host operations, the logistic function spelt as negate, exponential, add one, divide one by it.

  On the extended reals both are the same function of the six arguments, `Cert.Gcn.autoencoder` (Proof/Spec.lean,
  Proof/KernelValue.lean):
  * a change of float format is the identity, a matrix-unit product into a zero accumulator and a host `dot_general`
    are the same sum over the contracted index, and a row block of a product depends only on that block of rows of the
    left operand: the blocks' write-backs cover the result array, which is therefore the whole product
    (Proof/EncodeBlocks.lean, Proof/DecodeBlocks.lean);
  * the GCN layer is literally the same composition of host operations in both programs
    (Proof/KernelRun.lean for the kernel program, Proof/RefValue.lean for the reference);
  * 1 / (1 + exp (-t)) is the logistic function, at the infinities too (Proof/RefValue.lean).
  No law of the extended reals beyond these is used, so the precondition (finite inputs) is never opened.

  The three frame claims: the kernel program's, at the word level and at the extended reals, are the runs of its five
  segments; the reference's is its run with the result dropped. Nothing of the kernel was rewritten on the way to the
  extended reals, so there is nothing to preserve.
-/
import proofs.«110283_j59528246722864_1_alg».proof.Defs
import proofs.«110283_j59528246722864_1_alg».proof.Proof.Gen.Kernel
import proofs.«110283_j59528246722864_1_alg».proof.Proof.Gen.Kernel.Frame
import proofs.«110283_j59528246722864_1_alg».proof.Proof.Gen.KernelIdeal
import proofs.«110283_j59528246722864_1_alg».proof.Proof.Gen.KernelIdeal.Frame
import proofs.«110283_j59528246722864_1_alg».proof.Proof.Gen.ReferenceIdeal
import proofs.«110283_j59528246722864_1_alg».proof.Proof.Gen.Pre_finite_inputs
import proofs.«110283_j59528246722864_1_alg».proof.Proof.KernelValue
import proofs.«110283_j59528246722864_1_alg».proof.Proof.RefValue
import Idealize.ShloMosaic.Adequacy
import Idealize.ShloMosaic.Init

noncomputable section

namespace Cert.Proof

open Idealize.ShloMosaic Idealize.SL.Sem

/-- The word-level kernel program runs, faults nowhere and leaves its arguments as launched. -/
theorem frame_kernel : Cert.frame_Kernel := fun m ρ _ => Cert.Kernel.Gen.frame m ρ

/-- So does its reading at the extended reals. -/
theorem frame_kernel_ideal : Cert.frame_KernelIdeal := fun m ρ _ => Cert.KernelIdeal.Gen.frame m ρ

/-- So does the reference: its run with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- Nothing of the kernel was rewritten on the way to the extended reals. -/
theorem preserves : Cert.preserves_Kernel_KernelIdeal := trivial

/-- Both programs compute the graph autoencoder of their arguments: the kernel program by its two blocked products
    around the graph layer, the reference by two whole products around the same graph layer and the logistic function
    spelt as 1 / (1 + exp (-t)). From memories that agree on the arguments the two results are therefore equal,
    entry by entry, as extended reals. -/
theorem algebraic : Cert.algebraic_KernelIdeal_ReferenceIdeal := by
  intro m ρ m' ρ' _ hagree
  refine ⟨fun c => Cert.Gcn.autoencoder
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)),
    Cert.Gcn.Kernel.run_value m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v56_eq, Cert.Gcn.Ref.reference_value,
    (hagree c).1, (hagree c).2.1, (hagree c).2.2.1, (hagree c).2.2.2.1, (hagree c).2.2.2.2.1, (hagree c).2.2.2.2.2]
  rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
